-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x256 : Shape := ⟨2, ![256, 256]⟩
abbrev S50000x10 : Shape := ⟨2, ![50000, 10]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S50000x256 .f32) (main_arg1 : FVec F S50000x256 .f32) (main_arg2 : FVec F S256x256 .f32) (main_arg3 : FVec F S256x256 .f32) (main_arg4 : IVec S50000x10 32) (main_arg5 : IVec S50000x10 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S50000x256 : Shape := ⟨2, ![50000, 256]⟩
abbrev S256x256 : Shape := ⟨2, ![256, 256]⟩
abbrev S50000x10 : Shape := ⟨2, ![50000, 10]⟩
abbrev S256x512 : Shape := ⟨2, ![256, 512]⟩
abbrev S2000x256 : Shape := ⟨2, ![2000, 256]⟩
abbrev S2000x512 : Shape := ⟨2, ![2000, 512]⟩
abbrev S_ : Shape := ⟨0, ![]⟩
abbrev S50000x10x1 : Shape := ⟨3, ![50000, 10, 1]⟩
abbrev S50000x10x256 : Shape := ⟨3, ![50000, 10, 256]⟩
abbrev S50000 : Shape := ⟨1, ![50000]⟩
abbrev S50000x1 : Shape := ⟨2, ![50000, 1]⟩
abbrev S1x50000x256 : Shape := ⟨3, ![1, 50000, 256]⟩
abbrev S2x50000x256 : Shape := ⟨3, ![2, 50000, 256]⟩

abbrev nBuf : Space → Nat
  | .hbm => 81
  | .vmem => 14
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S256x256, .f32⟩
  | .hbm, ⟨3, _⟩ => ⟨S256x256, .f32⟩
  | .hbm, ⟨4, _⟩ => ⟨S50000x10, .i32⟩
  | .hbm, ⟨5, _⟩ => ⟨S50000x10, .i32⟩
  | .hbm, ⟨6, _⟩ => ⟨S256x512, .f32⟩
  | .hbm, ⟨7, _⟩ => ⟨S256x512, .bf16⟩
  | .hbm, ⟨8, _⟩ => ⟨S50000x256, .f32⟩
  | .hbm, ⟨9, _⟩ => ⟨S50000x256, .bf16⟩
  | .hbm, ⟨10, _⟩ => ⟨S50000x256, .f32⟩
  | .hbm, ⟨11, _⟩ => ⟨S50000x256, .bf16⟩
  | .hbm, ⟨12, _⟩ => ⟨S_, .i32⟩
  | .hbm, ⟨13, _⟩ => ⟨S50000x10, .i32⟩
  | .hbm, ⟨14, _⟩ => ⟨S50000x10, .i1⟩
  | .hbm, ⟨15, _⟩ => ⟨S_, .i32⟩
  | .hbm, ⟨16, _⟩ => ⟨S50000x10, .i32⟩
  | .hbm, ⟨17, _⟩ => ⟨S50000x10, .i1⟩
  | .hbm, ⟨18, _⟩ => ⟨S_, .i32⟩
  | .hbm, ⟨19, _⟩ => ⟨S50000x10, .i32⟩
  | .hbm, ⟨20, _⟩ => ⟨S50000x10, .i32⟩
  | .hbm, ⟨21, _⟩ => ⟨S50000x10, .i32⟩
  | .hbm, ⟨22, _⟩ => ⟨S50000x10x1, .i32⟩
  | .hbm, ⟨23, _⟩ => ⟨S50000x10x256, .bf16⟩
  | .hbm, ⟨24, _⟩ => ⟨S50000x10x256, .f32⟩
  | .hbm, ⟨25, _⟩ => ⟨S50000x10x1, .i1⟩
  | .hbm, ⟨26, _⟩ => ⟨S50000x10x1, .f32⟩
  | .hbm, ⟨27, _⟩ => ⟨S50000x10x256, .f32⟩
  | .hbm, ⟨28, _⟩ => ⟨S50000x10x256, .f32⟩
  | .hbm, ⟨29, _⟩ => ⟨S50000x10, .i32⟩
  | .hbm, ⟨30, _⟩ => ⟨S_, .i32⟩
  | .hbm, ⟨31, _⟩ => ⟨S50000, .i32⟩
  | .hbm, ⟨32, _⟩ => ⟨S_, .i32⟩
  | .hbm, ⟨33, _⟩ => ⟨S50000, .i32⟩
  | .hbm, ⟨34, _⟩ => ⟨S50000, .i32⟩
  | .hbm, ⟨35, _⟩ => ⟨S50000, .f32⟩
  | .hbm, ⟨36, _⟩ => ⟨S50000x1, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S_, .f32⟩
  | .hbm, ⟨43, _⟩ => ⟨S50000x256, .f32⟩
  | .hbm, ⟨44, _⟩ => ⟨S50000x256, .f32⟩
  | .hbm, ⟨45, _⟩ => ⟨S_, .i32⟩
  | .hbm, ⟨46, _⟩ => ⟨S50000x10, .i32⟩
  | .hbm, ⟨47, _⟩ => ⟨S50000x10, .i1⟩
  | .hbm, ⟨48, _⟩ => ⟨S_, .i32⟩
  | .hbm, ⟨49, _⟩ => ⟨S50000x10, .i32⟩
  | .hbm, ⟨50, _⟩ => ⟨S50000x10, .i1⟩
  | .hbm, ⟨51, _⟩ => ⟨S_, .i32⟩
  | .hbm, ⟨52, _⟩ => ⟨S50000x10, .i32⟩
  | .hbm, ⟨53, _⟩ => ⟨S50000x10, .i32⟩
  | .hbm, ⟨54, _⟩ => ⟨S50000x10, .i32⟩
  | .hbm, ⟨55, _⟩ => ⟨S50000x10x1, .i32⟩
  | .hbm, ⟨56, _⟩ => ⟨S50000x10x256, .bf16⟩
  | .hbm, ⟨57, _⟩ => ⟨S50000x10x256, .f32⟩
  | .hbm, ⟨58, _⟩ => ⟨S50000x10x1, .i1⟩
  | .hbm, ⟨59, _⟩ => ⟨S50000x10x1, .f32⟩
  | .hbm, ⟨60, _⟩ => ⟨S50000x10x256, .f32⟩
  | .hbm, ⟨61, _⟩ => ⟨S50000x10x256, .f32⟩
  | .hbm, ⟨62, _⟩ => ⟨S50000x10, .i32⟩
  | .hbm, ⟨63, _⟩ => ⟨S_, .i32⟩
  | .hbm, ⟨64, _⟩ => ⟨S50000, .i32⟩
  | .hbm, ⟨65, _⟩ => ⟨S_, .i32⟩
  | .hbm, ⟨66, _⟩ => ⟨S50000, .i32⟩
  | .hbm, ⟨67, _⟩ => ⟨S50000, .i32⟩
  | .hbm, ⟨68, _⟩ => ⟨S50000, .f32⟩
  | .hbm, ⟨69, _⟩ => ⟨S50000x1, .f32⟩
  | .hbm, ⟨70, _⟩ => ⟨S_, .f32⟩
  | .hbm, ⟨71, _⟩ => ⟨S50000x256, .f32⟩
  | .hbm, ⟨72, _⟩ => ⟨S50000x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S1x50000x256, .f32⟩
  | .hbm, ⟨79, _⟩ => ⟨S1x50000x256, .f32⟩
  | .hbm, ⟨80, _⟩ => ⟨S2x50000x256, .f32⟩
  | .local _ .vmem, ⟨0, _⟩ => ⟨S2000x256, .f32⟩
  | .local _ .vmem, ⟨1, _⟩ => ⟨S2000x256, .f32⟩
  | .local _ .vmem, ⟨2, _⟩ => ⟨S256x512, .bf16⟩
  | .local _ .vmem, ⟨3, _⟩ => ⟨S2000x256, .f32⟩
  | .local _ .vmem, ⟨4, _⟩ => ⟨S2000x256, .f32⟩
  | .local _ .vmem, ⟨5, _⟩ => ⟨S2000x256, .bf16⟩
  | .local _ .vmem, ⟨6, _⟩ => ⟨S2000x256, .bf16⟩
  | .local _ .vmem, ⟨7, _⟩ => ⟨S2000x256, .f32⟩
  | .local _ .vmem, ⟨8, _⟩ => ⟨S2000x256, .f32⟩
  | .local _ .vmem, ⟨9, _⟩ => ⟨S256x512, .bf16⟩
  | .local _ .vmem, ⟨10, _⟩ => ⟨S2000x256, .f32⟩
  | .local _ .vmem, ⟨11, _⟩ => ⟨S2000x256, .f32⟩
  | .local _ .vmem, ⟨12, _⟩ => ⟨S2000x256, .bf16⟩
  | .local _ .vmem, ⟨13, _⟩ => ⟨S2000x256, .bf16⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3_0 : Ref sig .tc := ⟨.hbm, 10, rfl⟩
abbrev main_v3_1 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_2 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_call0_cst : Ref sig .tc := ⟨.hbm, 42, rfl⟩
abbrev main_call0_v0 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_c_5 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_7 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_call1_cst : Ref sig .tc := ⟨.hbm, 75, rfl⟩
abbrev main_call1_v0 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  concatenates_S256x256_S256x256_S256x512_d1 : Shape.Concatenates [S256x256, S256x256] S256x512 1
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  slices_S2000x512_o0_0_S2000x256 : S2000x512.Slices ![0, 0] S2000x256
  slices_S2000x512_o0_256_S2000x256 : S2000x512.Slices ![0, 256] S2000x256
  packedbf16_S2000x256_S2000x256_0_0 : (Rect.unit (s := S2000x256) ![0, 0] S2000x256.size inb_S2000x256_S2000x256_0_0).PackedRows (EltTy.packing .bf16)
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  bcast_S50000x10x1_S50000x10x256_0_1_2 : S50000x10x1.BroadcastsInDim S50000x10x256 (![0, 1, 2] : Fin 3 → Fin S50000x10x256.rank)
  natLt_1_32 : 1 < 32
  reducesTo_S50000x10_S50000_d1 : S50000x10.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  reducesTo_S50000x10x256_S50000x256_d1 : S50000x10x256.ReducesTo [1] S50000x256
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S50000x256_S1x50000x256_1_2 : S50000x256.BroadcastsInDim S1x50000x256 (![1, 2] : Fin 2 → Fin S1x50000x256.rank)
  concatenates_S1x50000x256_S1x50000x256_S2x50000x256_d0 : Shape.Concatenates [S1x50000x256, S1x50000x256] S2x50000x256 0
  dot_S2000x256_S256x512_S2000x512_1_0_0_1_n_n_wf : DotDims.WF S2000x256 S256x512 S2000x512 [1] [0] [0] [1] [] []
  gather_S50000x256_S50000x10x1_S50000x10x256_2_0_n_n_0_2_1256_wf : GatherDims.WF S50000x256 S50000x10x1 S50000x10x256 [2] [0] [] [0] [] 2 ![1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .bf16 = 32 ∨ (Rect.block (s := S50000x256) S2000x256.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x512.size a ≤ S256x512.size a
  hwx1_1 : ∀ i : grid1.Coords, EltTy.bits .bf16 = 32 ∨ (Rect.block (s := S256x512) S256x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .bf16 = 32 ∨ (Rect.block (s := S50000x256) S2000x256.size (cc1_transform_3 i) (hinb1_3 i)).WholeWords (EltTy.packing .bf16)

variable [Facts₀]

def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def gather_S50000x256_S50000x10x1_S50000x10x256_2_0_n_n_0_2_1256 : GatherDims S50000x256 S50000x10x1 S50000x10x256 where
  offsetDims := [2]
  collapsedSliceDims := [0]
  operandBatchingDims := []
  startIndicesBatchingDims := []
  startIndexMap := [0]
  indexVectorDim := 2
  sliceSizes := ![1, 256]
  wf := gather_S50000x256_S50000x10x1_S50000x10x256_2_0_n_n_0_2_1256_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S2000x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S256x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S2000x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S2000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x256 : Shape := ⟨2, ![256, 256]⟩
abbrev S50000x10 : Shape := ⟨2, ![50000, 10]⟩
abbrev S_ : Shape := ⟨0, ![]⟩
abbrev S50000x10x1 : Shape := ⟨3, ![50000, 10, 1]⟩
abbrev S50000x10x256 : Shape := ⟨3, ![50000, 10, 256]⟩
abbrev S50000 : Shape := ⟨1, ![50000]⟩
abbrev S50000x1 : Shape := ⟨2, ![50000, 1]⟩
abbrev S1x50000x256 : Shape := ⟨3, ![1, 50000, 256]⟩
abbrev S2x50000x256 : Shape := ⟨3, ![2, 50000, 256]⟩

abbrev nBuf : Space → Nat
  | .hbm => 77
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S256x256, .f32⟩
  | .hbm, ⟨3, _⟩ => ⟨S256x256, .f32⟩
  | .hbm, ⟨4, _⟩ => ⟨S50000x10, .i32⟩
  | .hbm, ⟨5, _⟩ => ⟨S50000x10, .i32⟩
  | .hbm, ⟨6, _⟩ => ⟨S50000x256, .f32⟩
  | .hbm, ⟨7, _⟩ => ⟨S50000x256, .f32⟩
  | .hbm, ⟨8, _⟩ => ⟨S_, .i32⟩
  | .hbm, ⟨9, _⟩ => ⟨S50000x10, .i32⟩
  | .hbm, ⟨10, _⟩ => ⟨S50000x10, .i1⟩
  | .hbm, ⟨11, _⟩ => ⟨S_, .i32⟩
  | .hbm, ⟨12, _⟩ => ⟨S50000x10, .i32⟩
  | .hbm, ⟨13, _⟩ => ⟨S50000x10, .i1⟩
  | .hbm, ⟨14, _⟩ => ⟨S_, .i32⟩
  | .hbm, ⟨15, _⟩ => ⟨S50000x10, .i32⟩
  | .hbm, ⟨16, _⟩ => ⟨S50000x10, .i32⟩
  | .hbm, ⟨17, _⟩ => ⟨S50000x10, .i32⟩
  | .hbm, ⟨18, _⟩ => ⟨S50000x10x1, .i32⟩
  | .hbm, ⟨19, _⟩ => ⟨S50000x10x256, .f32⟩
  | .hbm, ⟨20, _⟩ => ⟨S50000x10x1, .i1⟩
  | .hbm, ⟨21, _⟩ => ⟨S50000x10x1, .f32⟩
  | .hbm, ⟨22, _⟩ => ⟨S50000x10x256, .f32⟩
  | .hbm, ⟨23, _⟩ => ⟨S50000x10x256, .f32⟩
  | .hbm, ⟨24, _⟩ => ⟨S50000x10, .i32⟩
  | .hbm, ⟨25, _⟩ => ⟨S_, .i32⟩
  | .hbm, ⟨26, _⟩ => ⟨S50000, .i32⟩
  | .hbm, ⟨27, _⟩ => ⟨S_, .i32⟩
  | .hbm, ⟨28, _⟩ => ⟨S50000, .i32⟩
  | .hbm, ⟨29, _⟩ => ⟨S50000, .i32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S50000x10, .i32⟩
  | .hbm, ⟨44, _⟩ => ⟨S50000x10, .i1⟩
  | .hbm, ⟨45, _⟩ => ⟨S_, .i32⟩
  | .hbm, ⟨46, _⟩ => ⟨S50000x10, .i32⟩
  | .hbm, ⟨47, _⟩ => ⟨S50000x10, .i1⟩
  | .hbm, ⟨48, _⟩ => ⟨S_, .i32⟩
  | .hbm, ⟨49, _⟩ => ⟨S50000x10, .i32⟩
  | .hbm, ⟨50, _⟩ => ⟨S50000x10, .i32⟩
  | .hbm, ⟨51, _⟩ => ⟨S50000x10, .i32⟩
  | .hbm, ⟨52, _⟩ => ⟨S50000x10x1, .i32⟩
  | .hbm, ⟨53, _⟩ => ⟨S50000x10x256, .f32⟩
  | .hbm, ⟨54, _⟩ => ⟨S50000x10x1, .i1⟩
  | .hbm, ⟨55, _⟩ => ⟨S50000x10x1, .f32⟩
  | .hbm, ⟨56, _⟩ => ⟨S50000x10x256, .f32⟩
  | .hbm, ⟨57, _⟩ => ⟨S50000x10x256, .f32⟩
  | .hbm, ⟨58, _⟩ => ⟨S50000x10, .i32⟩
  | .hbm, ⟨59, _⟩ => ⟨S_, .i32⟩
  | .hbm, ⟨60, _⟩ => ⟨S50000, .i32⟩
  | .hbm, ⟨61, _⟩ => ⟨S_, .i32⟩
  | .hbm, ⟨62, _⟩ => ⟨S50000, .i32⟩
  | .hbm, ⟨63, _⟩ => ⟨S50000, .i32⟩
  | .hbm, ⟨64, _⟩ => ⟨S50000, .f32⟩
  | .hbm, ⟨65, _⟩ => ⟨S50000x1, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S_, .f32⟩
  | .hbm, ⟨72, _⟩ => ⟨S50000x256, .f32⟩
  | .hbm, ⟨73, _⟩ => ⟨S50000x256, .f32⟩
  | .hbm, ⟨74, _⟩ => ⟨S1x50000x256, .f32⟩
  | .hbm, ⟨75, _⟩ => ⟨S1x50000x256, .f32⟩
  | .hbm, ⟨76, _⟩ => ⟨S2x50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_call0_cst : Ref sig .tc := ⟨.hbm, 37, rfl⟩
abbrev main_call0_v0 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call1_cst : Ref sig .tc := ⟨.hbm, 71, rfl⟩
abbrev main_call1_v0 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  bcast_S_S50000x10 : S_.BroadcastsInDim S50000x10 (![] : Fin 0 → Fin S50000x10.rank)
  bcast_S50000x10_S50000x10x1_0_1 : S50000x10.BroadcastsInDim S50000x10x1 (![0, 1] : Fin 2 → Fin S50000x10x1.rank)
  bcast_S50000x10x1_S50000x10x256_0_1_2 : S50000x10x1.BroadcastsInDim S50000x10x256 (![0, 1, 2] : Fin 3 → Fin S50000x10x256.rank)
  natLt_1_32 : 1 < 32
  reducesTo_S50000x10_S50000_d1 : S50000x10.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  reducesTo_S50000x10x256_S50000x256_d1 : S50000x10x256.ReducesTo [1] S50000x256
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S50000x256_S1x50000x256_1_2 : S50000x256.BroadcastsInDim S1x50000x256 (![1, 2] : Fin 2 → Fin S1x50000x256.rank)
  concatenates_S1x50000x256_S1x50000x256_S2x50000x256_d0 : Shape.Concatenates [S1x50000x256, S1x50000x256] S2x50000x256 0
  dot_S50000x256_S256x256_S50000x256_1_0_0_1_n_n_wf : DotDims.WF S50000x256 S256x256 S50000x256 [1] [0] [0] [1] [] []
  gather_S50000x256_S50000x10x1_S50000x10x256_2_0_n_n_0_2_1256_wf : GatherDims.WF S50000x256 S50000x10x1 S50000x10x256 [2] [0] [] [0] [] 2 ![1, 256]

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S50000x10x1_S50000x10x256_2_0_n_n_0_2_1256 : GatherDims S50000x256 S50000x10x1 S50000x10x256 where
  offsetDims := [2]
  collapsedSliceDims := [0]
  operandBatchingDims := []
  startIndicesBatchingDims := []
  startIndexMap := [0]
  indexVectorDim := 2
  sliceSizes := ![1, 256]
  wf := gather_S50000x256_S50000x10x1_S50000x10x256_2_0_n_n_0_2_1256_wf

class Facts : Prop extends Facts₀ where

variable [Facts]
-- ==== Proof.KernelRun.lean ====
/-
  The idealized kernel's run, with its result named.

  The program is two projection kernels (one per protein) between stretches of host operations.  Its run passes
  through a sequence of buffer contents: the launch memory, the contents after the weights are concatenated, the
  contents after each projection (the kernel's output arrays at what its grid points wrote back, every other buffer
  kept), and the contents after each of the five stretches of the masked-mean tail.  Every weakly fair execution
  terminates without a fault in a state whose unscoped buffers hold the LAST of these contents; so the result buffer
  holds the last contents' value at it, and the six argument arrays are as launched (no stretch and no kernel writes
  one).  What that value is, as a function of the arguments, is read off the sequence in the modules that follow.
-/
import proofs.«120827_j27058293965311_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_result : θ_run defs (onTc (τ := τ) (main (F := F))) ⟨m, fun _ => 0, ρ⟩ (fun r => ∀ c : Dev nD,
      r.2.mem ((c.tc : Thread nD τ).loc main_v56) = W8 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v56 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.KernelTail.lean ====
/-
  The masked-mean tail of the idealized kernel's host program, as one function of what the two projections left.

  After the two projection kernels the host program does, for each protein, the same thing: it wraps the neighbour
  indices (a negative index counts from the end), gathers the rows of the neighbour-base table at them, zeroes the
  rows whose index was the padding value, sums the ten rows, divides by the number of real neighbours (at least one),
  adds the residue signal and clamps at zero; and at the end it stacks the two proteins' arrays.  `signal` is one
  protein's array as a function of its residue table, its neighbour-base table and its index array; `pair` and
  `stack` are the final stacking.  The five stretches of host operations after the kernels, run one after the other
  from any buffer contents, leave the result buffer at `stack` of the two proteins' `signal`s of the contents' tables
  and index arrays: each operation's result is its function of the contents before it, and no operation writes a
  buffer that a later one of another protein reads.
-/
import proofs.«120827_j27058293965311_2_alg».proof.Proof.Gen.KernelIdeal.Launch
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- One protein's output: the residue table plus the masked mean of the gathered neighbour rows, clamped at zero.
    The neighbour-base table is held in the narrower float format and widened after the gather. -/
def signal (Yr : (⟨S50000x256, .f32⟩ : BufTy).Contents (Elt F)) (Yn : (⟨S50000x256, .bf16⟩ : BufTy).Contents (Elt F))
    (nb : (⟨S50000x10, .i32⟩ : BufTy).Contents (Elt F)) : (⟨S50000x256, .f32⟩ : BufTy).Contents (Elt F) :=
  (maximumf (addf Yr (Host.divf (Host.reduceAdd (mulf (extf .f32 (Host.gather gather_S50000x256_S50000x10x1_S50000x10x256_2_0_n_n_0_2_1256 Yn (broadcastInDim S50000x10x1 ![0, 1] bcast_S50000x10_S50000x10x1_0_1 (select (cmpi .slt nb (broadcastInDim S50000x10 ![] bcast_S_S50000x10 (constantI S_ 32 0#32))) (addi nb (broadcastInDim S50000x10 ![] bcast_S_S50000x10 (constantI S_ 32 50000#32))) nb))) bitsLt_bf16_f32) (broadcastInDim S50000x10x256 ![0, 1, 2] bcast_S50000x10x1_S50000x10x256_0_1_2 (uitofp .f32 (broadcastInDim S50000x10x1 ![0, 1] bcast_S50000x10_S50000x10x1_0_1 (cmpi .sgt nb (broadcastInDim S50000x10 ![] bcast_S_S50000x10 (constantI S_ 32 4294967295#32))))))) (constant S_ .f32 0x00000000#32) reducesTo_S50000x10x256_S50000x256_d1 h_S_) (broadcastInDim S50000x256 ![0, 1] bcast_S50000x1_S50000x256_0_1 (broadcastInDim S50000x1 ![0] bcast_S50000_S50000x1_0 (sitofp .f32 (maxsi (Host.reduce IntOp.addi (extui 32 (cmpi .sgt nb (broadcastInDim S50000x10 ![] bcast_S_S50000x10 (constantI S_ 32 4294967295#32))) natLt_1_32) (constantI S_ 32 0#32) reducesTo_S50000x10_S50000_d1 h_S_) (broadcastInDim S50000 ![] bcast_S_S50000 (constantI S_ 32 1#32)))))))) (broadcastInDim S50000x256 ![] bcast_S_S50000x256 (constant S_ .f32 0x00000000#32)))

/-- Two arrays of the stacked shape's pieces, one after the other along the new leading axis. -/
def pair (x y : (⟨S1x50000x256, .f32⟩ : BufTy).Contents (Elt F)) : (⟨S2x50000x256, .f32⟩ : BufTy).Contents (Elt F) :=
  concatenate S2x50000x256 0 [⟨S1x50000x256, x⟩, ⟨S1x50000x256, y⟩] concatenates_S1x50000x256_S1x50000x256_S2x50000x256_d0

/-- Two proteins' arrays stacked along a new leading axis. -/
def stack (a b : (⟨S50000x256, .f32⟩ : BufTy).Contents (Elt F)) : (⟨S2x50000x256, .f32⟩ : BufTy).Contents (Elt F) :=
  concatenate S2x50000x256 0 [⟨S1x50000x256, broadcastInDim S1x50000x256 ![1, 2] bcast_S50000x256_S1x50000x256_1_2 a⟩, ⟨S1x50000x256, broadcastInDim S1x50000x256 ![1, 2] bcast_S50000x256_S1x50000x256_1_2 b⟩] concatenates_S1x50000x256_S1x50000x256_S2x50000x256_d0

theorem pair_eq (x y : (⟨S1x50000x256, .f32⟩ : BufTy).Contents (Elt F)) :
    concatenate S2x50000x256 0 [⟨S1x50000x256, x⟩, ⟨S1x50000x256, y⟩] concatenates_S1x50000x256_S1x50000x256_S2x50000x256_d0 = pair (F := F) x y := rfl

theorem stack_eq (a b : (⟨S50000x256, .f32⟩ : BufTy).Contents (Elt F)) :
    pair (F := F) (broadcastInDim S1x50000x256 ![1, 2] bcast_S50000x256_S1x50000x256_1_2 a) (broadcastInDim S1x50000x256 ![1, 2] bcast_S50000x256_S1x50000x256_1_2 b) = stack a b := rfl

set_option maxHeartbeats 4000000 in
/-- The five stretches after the kernels, from any contents: the result is the stack of the two proteins' signals. -/
theorem fold (V : Valuation τ sig (Elt F)) :
    after hostOps2_4 (after hostOps2_3 (after hostOps2_2 (after hostOps2_1 (after hostOps2 V)))) (Proc.devRef .tc main_v56)
      = stack (signal (V (Proc.devRef .tc main_v2_0)) (V (Proc.devRef .tc main_v2_1)) (V (Proc.devRef .tc main_arg4)))
          (signal (V (Proc.devRef .tc main_v3_0)) (V (Proc.devRef .tc main_v3_1)) (V (Proc.devRef .tc main_arg5))) := by
  rw [← stack_eq]
  unfold signal
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne']
  rw [pair_eq]
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne'] <;> rfl

end Cert.KernelIdeal.Tail

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.ProjSpec.lean ====
/-
  The two halves of a product with a concatenated weight matrix.

  A feature matrix Z (50000 × 256) against a weight matrix Wc (256 × 512) whose columns are two 256-column matrices
  side by side: entry (r, q) of the LEFT half of the product is the sum over k of Z(r, k) · Wc(k, q), and entry (r, q)
  of the RIGHT half is the sum over k of Z(r, k) · Wc(k, q + 256).  These are the two arrays a projection kernel
  writes, stated as functions of whole arrays.
-/
import proofs.«120827_j27058293965311_2_alg».proof.Proof.LibDense

noncomputable section

namespace Cert.Proj

open Idealize.ShloMosaic Idealize.ShloMosaic.ValueIdx Cert.Lib.Dense

/-- The left half: columns 0 … 255 of the product. -/
def lo (Z : (⟨2, ![50000, 256]⟩ : Shape).Idx → EReal) (Wc : (⟨2, ![256, 512]⟩ : Shape).Idx → EReal) :
    (⟨2, ![50000, 256]⟩ : Shape).Idx → EReal :=
  fun i => rowDot Z Wc (i 0) (Fin.castLE (by decide : 256 ≤ 512) (i 1))

/-- The right half: columns 256 … 511 of the product. -/
def hi (Z : (⟨2, ![50000, 256]⟩ : Shape).Idx → EReal) (Wc : (⟨2, ![256, 512]⟩ : Shape).Idx → EReal) :
    (⟨2, ![50000, 256]⟩ : Shape).Idx → EReal :=
  fun i => rowDot Z Wc (i 0) (Fin.natAdd 256 (i 1))

theorem lo_ix2 (Z : (⟨2, ![50000, 256]⟩ : Shape).Idx → EReal) (Wc : (⟨2, ![256, 512]⟩ : Shape).Idx → EReal)
    (r : Fin 50000) (q : Fin 256) : lo Z Wc (ix2 r q) = rowDot Z Wc r (Fin.castLE (by decide : 256 ≤ 512) q) := rfl

theorem hi_ix2 (Z : (⟨2, ![50000, 256]⟩ : Shape).Idx → EReal) (Wc : (⟨2, ![256, 512]⟩ : Shape).Idx → EReal)
    (r : Fin 50000) (q : Fin 256) : hi Z Wc (ix2 r q) = rowDot Z Wc r (Fin.natAdd 256 q) := rfl

end Cert.Proj

end
-- ==== Proof.Proj0.lean ====
/-
  What projection kernel 0 leaves in its two output arrays, as functions of the arrays it reads.

  The kernel's grid has 25 points; at point t it reads rows 2000·t … 2000·t + 1999 of the feature matrix and the
  whole 256 × 512 weight matrix, multiplies them (the narrowing of both operands to the shorter float format is the
  identity on the extended reals, and a product into a zero accumulator is the plain sum over the contracted axis),
  and writes the product's columns 0 … 255 to block t of the first output and its columns 256 … 511 to block t of the
  second.  So what point t writes back is block t of ONE function of the whole arrays — the left, respectively right,
  half of the whole product — and since the 25 blocks of 2000 rows tile the 50000 rows, each output array ends at
  that function.
-/
import proofs.«120827_j27058293965311_2_alg».proof.Proof.Gen.KernelIdeal.Frame
import proofs.«120827_j27058293965311_2_alg».proof.Proof.ProjSpec
import Idealize.ShloMosaic.Lib.Pipeline.Value
import Idealize.ShloMosaic.Lib.ValueIdx

set_option maxRecDepth 16384

noncomputable section

namespace Cert.KernelIdeal.Proj0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.Dense Cert.Proj
open scoped BigOperators

/-! ## The body's two stored values at an entry -/

theorem hz : (![0, 0] : Fin 2 → Nat) = fun _ => 0 := funext fun a => by fin_cases a <;> rfl

/-- The product the body forms, at entry (p, q) of the 2000 × 512 tile: row p of the block against column q of the
    weights. -/
theorem pay1_at (x0 : Vec Ideal S2000x256 .f32) (x1 : Vec Ideal S256x512 .bf16) (p : Fin 2000) (q : Fin 512) :
    k0_pay1 (F := Ideal) x0 x1 (ix2 p q) = rowDot x0 x1 p q := by
  unfold k0_pay1
  refine (matmul_zero_at dot_S2000x256_S256x512_S2000x512_1_0_0_1_n_n rfl rfl rfl rfl rfl rfl _ _ p q).trans ?_
  rw [shapeCast_self]
  rfl

/-- The first stored value: the tile's columns 0 … 255. -/
theorem pay2_at (x0 : Vec Ideal S2000x256 .f32) (x1 : Vec Ideal S256x512 .bf16) (p : Fin 2000) (q : Fin 256) :
    k0_pay2 (F := Ideal) x0 x1 (ix2 p q) = rowDot x0 x1 p (Fin.castLE (by decide : 256 ≤ 512) q) := by
  unfold k0_pay2
  refine (extractStridedSlice_apply _ _ _ (ix2 p q) (ix2 p (Fin.castLE (by decide : 256 ≤ 512) q)) (fun a => ?_)).trans
    (pay1_at x0 x1 p _)
  match a with
  | ⟨0, _⟩ => exact (Nat.zero_add _).symm
  | ⟨1, _⟩ => exact (Nat.zero_add _).symm

/-- The second stored value: the tile's columns 256 … 511. -/
theorem pay3_at (x0 : Vec Ideal S2000x256 .f32) (x1 : Vec Ideal S256x512 .bf16) (p : Fin 2000) (q : Fin 256) :
    k0_pay3 (F := Ideal) x0 x1 (ix2 p q) = rowDot x0 x1 p (Fin.natAdd 256 q) := by
  unfold k0_pay3
  show extractStridedSlice S2000x256 ![0, 256] (k0_pay1 (F := Ideal) x0 x1) slices_S2000x512_o0_256_S2000x256 (ix2 p q) = _
  refine (extractStridedSlice_apply _ _ _ (ix2 p q) (ix2 p (Fin.natAdd 256 q)) (fun a => ?_)).trans
    (pay1_at x0 x1 p _)
  match a with
  | ⟨0, _⟩ => exact (Nat.zero_add _).symm
  | ⟨1, _⟩ => rfl

/-! ## The printed index maps over the grid -/

/-- The feature block and both output blocks move with the grid point along the rows; the weights' block does not
    move; no block moves along the columns. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

variable (V : (c : Dev nD) → (b : Ref sig .tc) → Buf (Elt Ideal) ((c : Thread nD τ).loc b))

/-! ## What a point writes back -/

/-- The feature block at point t, entry (p, k): row 2000·t + p of the feature matrix. -/
theorem feat_at (c : Dev nD) (t : Fin cfg0.N) (p : Fin 2000) (k : Fin 256) (r : Fin 50000) (hr : r.val = t.val * 2000 + p.val) :
    iblk0 V c 0 t (ix2 p k) = V c main_arg0 (ix2 r k) := by
  obtain ⟨e00, e01, -, -, -, -, -, -⟩ := idx_facts t
  show V c main_arg0 (((cfg0.win 0).blk t).view.emb (ix2 p k)) = V c main_arg0 (ix2 r k)
  refine congrArg _ (funext fun a => Fin.ext ?_)
  match a with
  | ⟨0, _⟩ => show win0_0.index t (0 : Fin 2) * 2000 + 1 * p.val = r.val; omega
  | ⟨1, _⟩ => show win0_0.index t (1 : Fin 2) * 256 + 1 * k.val = k.val; omega

/-- The weights' block at any point is the whole weight matrix. -/
theorem weights_at (c : Dev nD) (t : Fin cfg0.N) (k : Fin 256) (q : Fin 512) :
    iblk0 V c 1 t (ix2 k q) = V c main_v1 (ix2 k q) := by
  obtain ⟨-, -, e10, e11, -, -, -, -⟩ := idx_facts t
  show V c main_v1 (((cfg0.win 1).blk t).view.emb (ix2 k q)) = V c main_v1 (ix2 k q)
  refine congrArg _ (funext fun a => Fin.ext ?_)
  match a with
  | ⟨0, _⟩ => show win0_1.index t (0 : Fin 2) * 256 + 1 * k.val = k.val; omega
  | ⟨1, _⟩ => show win0_1.index t (1 : Fin 2) * 512 + 1 * q.val = q.val; omega

/-- Row p of the feature block against column q of the weights' block is row 2000·t + p of the feature matrix against
    column q of the weight matrix. -/
theorem rowDot_blocks (c : Dev nD) (t : Fin cfg0.N) (p : Fin 2000) (q : Fin 512) (r : Fin 50000) (hr : r.val = t.val * 2000 + p.val) :
    rowDot (iblk0 V c 0 t) (iblk0 V c 1 t) p q = rowDot (V c main_arg0) (V c main_v1) r q := by
  unfold rowDot
  refine Finset.sum_congr rfl fun k _ => ?_
  rw [feat_at V c t p k r hr, weights_at V c t k q]

/-- Output window 2: point t writes back block t of the left half of the whole product. -/
theorem flushed2 (c : Dev nD) (t : Fin cfg0.N) :
    (dat0 V c).flushed 2 t = ((cfg0.win 2).blk t).view.read (Elt Ideal) (lo (V c main_arg0) (V c main_v1)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x512) hz]
  obtain ⟨-, -, -, -, e20, e21, -, -⟩ := idx_facts t
  have ht : t.val < 25 := by have := t.isLt; have hN : cfg0.N = 25 := N_0; omega
  funext j
  obtain ⟨p, q, rfl⟩ : ∃ (p : Fin 2000) (q : Fin 256), j = ix2 p q := ⟨j 0, j 1, eq_ix2 j⟩
  have hp := p.isLt
  obtain ⟨r, hr⟩ : ∃ r : Fin 50000, r.val = t.val * 2000 + p.val := ⟨⟨t.val * 2000 + p.val, by omega⟩, rfl⟩
  have hemb : ((cfg0.win 2).blk t).view.emb (ix2 p q) = ix2 r q := by
    funext a; apply Fin.ext
    match a with
    | ⟨0, _⟩ => show win0_2.index t (0 : Fin 2) * 2000 + 1 * p.val = r.val; omega
    | ⟨1, _⟩ => show win0_2.index t (1 : Fin 2) * 256 + 1 * q.val = q.val; omega
  show k0_pay2 (F := Ideal) (iblk0 V c 0 t) (iblk0 V c 1 t) (ix2 p q) = lo (V c main_arg0) (V c main_v1) (((cfg0.win 2).blk t).view.emb (ix2 p q))
  rw [hemb, lo_ix2]
  exact (pay2_at _ _ p q).trans (rowDot_blocks V c t p _ r hr)

/-- Output window 3: point t writes back block t of the right half of the whole product. -/
theorem flushed3 (c : Dev nD) (t : Fin cfg0.N) :
    (dat0 V c).flushed 3 t = ((cfg0.win 3).blk t).view.read (Elt Ideal) (hi (V c main_arg0) (V c main_v1)) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x512) hz]
  obtain ⟨-, -, -, -, -, -, e30, e31⟩ := idx_facts t
  have ht : t.val < 25 := by have := t.isLt; have hN : cfg0.N = 25 := N_0; omega
  funext j
  obtain ⟨p, q, rfl⟩ : ∃ (p : Fin 2000) (q : Fin 256), j = ix2 p q := ⟨j 0, j 1, eq_ix2 j⟩
  have hp := p.isLt
  obtain ⟨r, hr⟩ : ∃ r : Fin 50000, r.val = t.val * 2000 + p.val := ⟨⟨t.val * 2000 + p.val, by omega⟩, rfl⟩
  have hemb : ((cfg0.win 3).blk t).view.emb (ix2 p q) = ix2 r q := by
    funext a; apply Fin.ext
    match a with
    | ⟨0, _⟩ => show win0_3.index t (0 : Fin 2) * 2000 + 1 * p.val = r.val; omega
    | ⟨1, _⟩ => show win0_3.index t (1 : Fin 2) * 256 + 1 * q.val = q.val; omega
  show k0_pay3 (F := Ideal) (iblk0 V c 0 t) (iblk0 V c 1 t) (ix2 p q) = hi (V c main_arg0) (V c main_v1) (((cfg0.win 3).blk t).view.emb (ix2 p q))
  rw [hemb, hi_ix2]
  exact (pay3_at _ _ p q).trans (rowDot_blocks V c t p _ r hr)

/-! ## The blocks tile the arrays -/

theorem mem_blk2 (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v2_0).slice (win0_2.rect t)).set ↔ _
  rw [View.set_slice_whole, Rect.mem_set_unit]
  exact Iff.rfl

theorem mem_blk3 (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v2_1).slice (win0_3.rect t)).set ↔ _
  rw [View.set_slice_whole, Rect.mem_set_unit]
  exact Iff.rfl

/-- Row r of the first output lies in the block of point r / 2000. -/
theorem cover2 (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, e20, e21, -, -⟩ := idx_facts t
  refine ⟨t, flush0_2 t, ?_⟩
  rw [mem_blk2]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- Row r of the second output lies in the block of point r / 2000. -/
theorem cover3 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, -, -, e30, e31⟩ := idx_facts t
  refine ⟨t, flush0_3 t, ?_⟩
  rw [mem_blk3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 256 ≤ (i 1).val ∧ (i 1).val < win0_3.index t (1 : Fin 2) * 256 + 256; omega

/-! ## The arrays after the run -/

/-- The first output array ends at the left half of the whole product. -/
theorem final2 (c : Dev nD) : (dat0 V c).arrAt 2 cfg0.N = lo (V c main_arg0) (V c main_v1) :=
  (dat0 V c).arrAt_eq_of_cover 2 _ (fun t _ => flushed2 V c t) cover2

/-- The second output array ends at the right half of the whole product. -/
theorem final3 (c : Dev nD) : (dat0 V c).arrAt 3 cfg0.N = hi (V c main_arg0) (V c main_v1) :=
  (dat0 V c).arrAt_eq_of_cover 3 _ (fun t _ => flushed3 V c t) cover3

/-- The two input arrays are as the kernel found them. -/
theorem final0 (c : Dev nD) : (dat0 V c).arrAt 0 cfg0.N = V c main_arg0 :=
  ((dat0 V c).arrAt_in 0 rfl cfg0.N).trans (A_eq0 V c 0)
theorem final1 (c : Dev nD) : (dat0 V c).arrAt 1 cfg0.N = V c main_v1 :=
  ((dat0 V c).arrAt_in 1 rfl cfg0.N).trans (A_eq0 V c 1)

end Cert.KernelIdeal.Proj0

end
-- ==== Proof.Proj1.lean ====
/-
  What projection kernel 1 leaves in its two output arrays, as functions of the arrays it reads.

  The kernel's grid has 25 points; at point t it reads rows 2000·t … 2000·t + 1999 of the feature matrix and the
  whole 256 × 512 weight matrix, multiplies them (the narrowing of both operands to the shorter float format is the
  identity on the extended reals, and a product into a zero accumulator is the plain sum over the contracted axis),
  and writes the product's columns 0 … 255 to block t of the first output and its columns 256 … 511 to block t of the
  second.  So what point t writes back is block t of ONE function of the whole arrays — the left, respectively right,
  half of the whole product — and since the 25 blocks of 2000 rows tile the 50000 rows, each output array ends at
  that function.
-/
import proofs.«120827_j27058293965311_2_alg».proof.Proof.Gen.KernelIdeal.Frame
import proofs.«120827_j27058293965311_2_alg».proof.Proof.ProjSpec
import Idealize.ShloMosaic.Lib.Pipeline.Value
import Idealize.ShloMosaic.Lib.ValueIdx

set_option maxRecDepth 16384

noncomputable section

namespace Cert.KernelIdeal.Proj1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.Lib.Dense Cert.Proj
open scoped BigOperators

/-! ## The body's two stored values at an entry -/

theorem hz : (![0, 0] : Fin 2 → Nat) = fun _ => 0 := funext fun a => by fin_cases a <;> rfl

/-- The product the body forms, at entry (p, q) of the 2000 × 512 tile: row p of the block against column q of the
    weights. -/
theorem pay1_at (x0 : Vec Ideal S2000x256 .f32) (x1 : Vec Ideal S256x512 .bf16) (p : Fin 2000) (q : Fin 512) :
    k1_pay1 (F := Ideal) x0 x1 (ix2 p q) = rowDot x0 x1 p q := by
  unfold k1_pay1
  refine (matmul_zero_at dot_S2000x256_S256x512_S2000x512_1_0_0_1_n_n rfl rfl rfl rfl rfl rfl _ _ p q).trans ?_
  rw [shapeCast_self]
  rfl

/-- The first stored value: the tile's columns 0 … 255. -/
theorem pay2_at (x0 : Vec Ideal S2000x256 .f32) (x1 : Vec Ideal S256x512 .bf16) (p : Fin 2000) (q : Fin 256) :
    k1_pay2 (F := Ideal) x0 x1 (ix2 p q) = rowDot x0 x1 p (Fin.castLE (by decide : 256 ≤ 512) q) := by
  unfold k1_pay2
  refine (extractStridedSlice_apply _ _ _ (ix2 p q) (ix2 p (Fin.castLE (by decide : 256 ≤ 512) q)) (fun a => ?_)).trans
    (pay1_at x0 x1 p _)
  match a with
  | ⟨0, _⟩ => exact (Nat.zero_add _).symm
  | ⟨1, _⟩ => exact (Nat.zero_add _).symm

/-- The second stored value: the tile's columns 256 … 511. -/
theorem pay3_at (x0 : Vec Ideal S2000x256 .f32) (x1 : Vec Ideal S256x512 .bf16) (p : Fin 2000) (q : Fin 256) :
    k1_pay3 (F := Ideal) x0 x1 (ix2 p q) = rowDot x0 x1 p (Fin.natAdd 256 q) := by
  unfold k1_pay3
  show extractStridedSlice S2000x256 ![0, 256] (k1_pay1 (F := Ideal) x0 x1) slices_S2000x512_o0_256_S2000x256 (ix2 p q) = _
  refine (extractStridedSlice_apply _ _ _ (ix2 p q) (ix2 p (Fin.natAdd 256 q)) (fun a => ?_)).trans
    (pay1_at x0 x1 p _)
  match a with
  | ⟨0, _⟩ => exact (Nat.zero_add _).symm
  | ⟨1, _⟩ => rfl

/-! ## The printed index maps over the grid -/

/-- The feature block and both output blocks move with the grid point along the rows; the weights' block does not
    move; no block moves along the columns. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-! ## What a point writes back -/

/-- The feature block at point t, entry (p, k): row 2000·t + p of the feature matrix. -/
theorem feat_at (c : Dev nD) (t : Fin cfg1.N) (p : Fin 2000) (k : Fin 256) (r : Fin 50000) (hr : r.val = t.val * 2000 + p.val) :
    iblk1 V c 0 t (ix2 p k) = V c main_arg1 (ix2 r k) := by
  obtain ⟨e00, e01, -, -, -, -, -, -⟩ := idx_facts t
  show V c main_arg1 (((cfg1.win 0).blk t).view.emb (ix2 p k)) = V c main_arg1 (ix2 r k)
  refine congrArg _ (funext fun a => Fin.ext ?_)
  match a with
  | ⟨0, _⟩ => show win1_0.index t (0 : Fin 2) * 2000 + 1 * p.val = r.val; omega
  | ⟨1, _⟩ => show win1_0.index t (1 : Fin 2) * 256 + 1 * k.val = k.val; omega

/-- The weights' block at any point is the whole weight matrix. -/
theorem weights_at (c : Dev nD) (t : Fin cfg1.N) (k : Fin 256) (q : Fin 512) :
    iblk1 V c 1 t (ix2 k q) = V c main_v1 (ix2 k q) := by
  obtain ⟨-, -, e10, e11, -, -, -, -⟩ := idx_facts t
  show V c main_v1 (((cfg1.win 1).blk t).view.emb (ix2 k q)) = V c main_v1 (ix2 k q)
  refine congrArg _ (funext fun a => Fin.ext ?_)
  match a with
  | ⟨0, _⟩ => show win1_1.index t (0 : Fin 2) * 256 + 1 * k.val = k.val; omega
  | ⟨1, _⟩ => show win1_1.index t (1 : Fin 2) * 512 + 1 * q.val = q.val; omega

/-- Row p of the feature block against column q of the weights' block is row 2000·t + p of the feature matrix against
    column q of the weight matrix. -/
theorem rowDot_blocks (c : Dev nD) (t : Fin cfg1.N) (p : Fin 2000) (q : Fin 512) (r : Fin 50000) (hr : r.val = t.val * 2000 + p.val) :
    rowDot (iblk1 V c 0 t) (iblk1 V c 1 t) p q = rowDot (V c main_arg1) (V c main_v1) r q := by
  unfold rowDot
  refine Finset.sum_congr rfl fun k _ => ?_
  rw [feat_at V c t p k r hr, weights_at V c t k q]

/-- Output window 2: point t writes back block t of the left half of the whole product. -/
theorem flushed2 (c : Dev nD) (t : Fin cfg1.N) :
    (dat1 V c).flushed 2 t = ((cfg1.win 2).blk t).view.read (Elt Ideal) (lo (V c main_arg1) (V c main_v1)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x512) hz]
  obtain ⟨-, -, -, -, e20, e21, -, -⟩ := idx_facts t
  have ht : t.val < 25 := by have := t.isLt; have hN : cfg1.N = 25 := N_1; omega
  funext j
  obtain ⟨p, q, rfl⟩ : ∃ (p : Fin 2000) (q : Fin 256), j = ix2 p q := ⟨j 0, j 1, eq_ix2 j⟩
  have hp := p.isLt
  obtain ⟨r, hr⟩ : ∃ r : Fin 50000, r.val = t.val * 2000 + p.val := ⟨⟨t.val * 2000 + p.val, by omega⟩, rfl⟩
  have hemb : ((cfg1.win 2).blk t).view.emb (ix2 p q) = ix2 r q := by
    funext a; apply Fin.ext
    match a with
    | ⟨0, _⟩ => show win1_2.index t (0 : Fin 2) * 2000 + 1 * p.val = r.val; omega
    | ⟨1, _⟩ => show win1_2.index t (1 : Fin 2) * 256 + 1 * q.val = q.val; omega
  show k1_pay2 (F := Ideal) (iblk1 V c 0 t) (iblk1 V c 1 t) (ix2 p q) = lo (V c main_arg1) (V c main_v1) (((cfg1.win 2).blk t).view.emb (ix2 p q))
  rw [hemb, lo_ix2]
  exact (pay2_at _ _ p q).trans (rowDot_blocks V c t p _ r hr)

/-- Output window 3: point t writes back block t of the right half of the whole product. -/
theorem flushed3 (c : Dev nD) (t : Fin cfg1.N) :
    (dat1 V c).flushed 3 t = ((cfg1.win 3).blk t).view.read (Elt Ideal) (hi (V c main_arg1) (V c main_v1)) := by
  show (cfg1.win 3).cut (grid1.coords t) ((dat1 V c).after 3 t) = _
  rw [after1_3]
  unfold out1_3
  rw [View.canon_unit_zero hz]
  simp only [View.ld_unit_zero (S := S2000x256) hz, View.ld_unit_zero (S := S256x512) hz]
  obtain ⟨-, -, -, -, -, -, e30, e31⟩ := idx_facts t
  have ht : t.val < 25 := by have := t.isLt; have hN : cfg1.N = 25 := N_1; omega
  funext j
  obtain ⟨p, q, rfl⟩ : ∃ (p : Fin 2000) (q : Fin 256), j = ix2 p q := ⟨j 0, j 1, eq_ix2 j⟩
  have hp := p.isLt
  obtain ⟨r, hr⟩ : ∃ r : Fin 50000, r.val = t.val * 2000 + p.val := ⟨⟨t.val * 2000 + p.val, by omega⟩, rfl⟩
  have hemb : ((cfg1.win 3).blk t).view.emb (ix2 p q) = ix2 r q := by
    funext a; apply Fin.ext
    match a with
    | ⟨0, _⟩ => show win1_3.index t (0 : Fin 2) * 2000 + 1 * p.val = r.val; omega
    | ⟨1, _⟩ => show win1_3.index t (1 : Fin 2) * 256 + 1 * q.val = q.val; omega
  show k1_pay3 (F := Ideal) (iblk1 V c 0 t) (iblk1 V c 1 t) (ix2 p q) = hi (V c main_arg1) (V c main_v1) (((cfg1.win 3).blk t).view.emb (ix2 p q))
  rw [hemb, hi_ix2]
  exact (pay3_at _ _ p q).trans (rowDot_blocks V c t p _ r hr)

/-! ## The blocks tile the arrays -/

theorem mem_blk2 (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v3_0).slice (win1_2.rect t)).set ↔ _
  rw [View.set_slice_whole, Rect.mem_set_unit]
  exact Iff.rfl

theorem mem_blk3 (t : Fin cfg1.N) (i : S50000x256.Idx) :
    i ∈ ((cfg1.win 3).blk t).view.set ↔ ∀ a : Fin 2, win1_3.index t a * S2000x256.size a ≤ (i a).val ∧ (i a).val < win1_3.index t a * S2000x256.size a + S2000x256.size a := by
  show i ∈ ((View.whole main_v3_1).slice (win1_3.rect t)).set ↔ _
  rw [View.set_slice_whole, Rect.mem_set_unit]
  exact Iff.rfl

/-- Row r of the first output lies in the block of point r / 2000. -/
theorem cover2 (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, e20, e21, -, -⟩ := idx_facts t
  refine ⟨t, flush1_2 t, ?_⟩
  rw [mem_blk2]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- Row r of the second output lies in the block of point r / 2000. -/
theorem cover3 (i : S50000x256.Idx) : ∃ t : Fin cfg1.N, (cfg1.win 3).flush t = true ∧ i ∈ ((cfg1.win 3).blk t).view.set := by
  have hi0 : (i 0).val < 50000 := (i 0).isLt
  have hi1 : (i 1).val < 256 := (i 1).isLt
  have hN : cfg1.N = 25 := N_1
  obtain ⟨t, ht⟩ : ∃ t : Fin cfg1.N, t.val = (i 0).val / 2000 := ⟨⟨(i 0).val / 2000, by omega⟩, rfl⟩
  obtain ⟨-, -, -, -, -, -, e30, e31⟩ := idx_facts t
  refine ⟨t, flush1_3 t, ?_⟩
  rw [mem_blk3]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 256 ≤ (i 1).val ∧ (i 1).val < win1_3.index t (1 : Fin 2) * 256 + 256; omega

/-! ## The arrays after the run -/

/-- The first output array ends at the left half of the whole product. -/
theorem final2 (c : Dev nD) : (dat1 V c).arrAt 2 cfg1.N = lo (V c main_arg1) (V c main_v1) :=
  (dat1 V c).arrAt_eq_of_cover 2 _ (fun t _ => flushed2 V c t) cover2

/-- The second output array ends at the right half of the whole product. -/
theorem final3 (c : Dev nD) : (dat1 V c).arrAt 3 cfg1.N = hi (V c main_arg1) (V c main_v1) :=
  (dat1 V c).arrAt_eq_of_cover 3 _ (fun t _ => flushed3 V c t) cover3

/-- The two input arrays are as the kernel found them. -/
theorem final0 (c : Dev nD) : (dat1 V c).arrAt 0 cfg1.N = V c main_arg1 :=
  ((dat1 V c).arrAt_in 0 rfl cfg1.N).trans (A_eq1 V c 0)
theorem final1 (c : Dev nD) : (dat1 V c).arrAt 1 cfg1.N = V c main_v1 :=
  ((dat1 V c).arrAt_in 1 rfl cfg1.N).trans (A_eq1 V c 1)

end Cert.KernelIdeal.Proj1

end
-- ==== Proof.KernelValue.lean ====
/-
  The idealized kernel's result as a function of its arguments.

  Walking the run's sequence of buffer contents backwards from the result:
  the five stretches of the tail leave the result at the stack of the two proteins' signals of what the two projection
  kernels left; the second kernel's two outputs are the two halves of (second feature matrix) · Wc and the first
  kernel's the two halves of (first feature matrix) · Wc, where Wc — the two weight matrices side by side, in the
  shorter float format — is what the first stretch wrote and neither kernel changed; and the feature matrices and the
  index arrays are as launched, no stretch and no kernel writing them.
-/
import proofs.«120827_j27058293965311_2_alg».proof.Proof.KernelTail
import proofs.«120827_j27058293965311_2_alg».proof.Proof.Proj0
import proofs.«120827_j27058293965311_2_alg».proof.Proof.Proj1

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.Proj

/-! ## The first stretch: the weights side by side -/

/-- The two weight matrices side by side, in the shorter float format. -/
abbrev catW (Wr Wnr : (⟨S256x256, .f32⟩ : BufTy).Contents (Elt Ideal)) : (⟨S256x512, .bf16⟩ : BufTy).Contents (Elt Ideal) :=
  truncf (F := Ideal) .bf16 (concatenate S256x512 1 [⟨S256x256, Wr⟩, ⟨S256x256, Wnr⟩] concatenates_S256x256_S256x256_S256x512_d1) bitsLt_bf16_f32

theorem first_v1 (V : Valuation τ sig (Elt Ideal)) :
    after (hostOps0 (F := Ideal)) V (Proc.devRef .tc main_v1) = catW (V (Proc.devRef .tc main_arg2)) (V (Proc.devRef .tc main_arg3)) := by
  after_results_simp <;> rfl
theorem first_arg0 (V : Valuation τ sig (Elt Ideal)) :
    after (hostOps0 (F := Ideal)) V (Proc.devRef .tc main_arg0) = V (Proc.devRef .tc main_arg0) := by after_results_simp <;> rfl
theorem first_arg1 (V : Valuation τ sig (Elt Ideal)) :
    after (hostOps0 (F := Ideal)) V (Proc.devRef .tc main_arg1) = V (Proc.devRef .tc main_arg1) := by after_results_simp <;> rfl
theorem first_arg4 (V : Valuation τ sig (Elt Ideal)) :
    after (hostOps0 (F := Ideal)) V (Proc.devRef .tc main_arg4) = V (Proc.devRef .tc main_arg4) := by after_results_simp <;> rfl
theorem first_arg5 (V : Valuation τ sig (Elt Ideal)) :
    after (hostOps0 (F := Ideal)) V (Proc.devRef .tc main_arg5) = V (Proc.devRef .tc main_arg5) := by after_results_simp <;> rfl

variable (m : (ℓ : Loc nD τ sig) → Buf (Elt Ideal) ℓ) (ρ : Dev nD → PrngReg)

/-! ## The contents the first kernel is entered with -/

theorem W1_arg0 (c : Dev nD) : W1 m ρ c (Proc.devRef .tc main_arg0) = m ((c : Thread nD τ).loc main_arg0) := first_arg0 (W0 m ρ c)
theorem W1_arg1 (c : Dev nD) : W1 m ρ c (Proc.devRef .tc main_arg1) = m ((c : Thread nD τ).loc main_arg1) := first_arg1 (W0 m ρ c)
theorem W1_arg4 (c : Dev nD) : W1 m ρ c (Proc.devRef .tc main_arg4) = m ((c : Thread nD τ).loc main_arg4) := first_arg4 (W0 m ρ c)
theorem W1_arg5 (c : Dev nD) : W1 m ρ c (Proc.devRef .tc main_arg5) = m ((c : Thread nD τ).loc main_arg5) := first_arg5 (W0 m ρ c)
theorem W1_v1 (c : Dev nD) : W1 m ρ c (Proc.devRef .tc main_v1)
    = catW (m ((c : Thread nD τ).loc main_arg2)) (m ((c : Thread nD τ).loc main_arg3)) := first_v1 (W0 m ρ c)

/-! ## What the first kernel leaves -/

theorem W2_v2_0 (c : Dev nD) : W2 m ρ c (Proc.devRef .tc main_v2_0)
    = lo (m ((c : Thread nD τ).loc main_arg0)) (catW (m ((c : Thread nD τ).loc main_arg2)) (m ((c : Thread nD τ).loc main_arg3))) :=
  (W2_arr m ρ c 2).trans ((Proj0.final2 (V1 m ρ) c).trans (congrArg₂ lo (W1_arg0 m ρ c) (W1_v1 m ρ c)))
theorem W2_v2_1 (c : Dev nD) : W2 m ρ c (Proc.devRef .tc main_v2_1)
    = hi (m ((c : Thread nD τ).loc main_arg0)) (catW (m ((c : Thread nD τ).loc main_arg2)) (m ((c : Thread nD τ).loc main_arg3))) :=
  (W2_arr m ρ c 3).trans ((Proj0.final3 (V1 m ρ) c).trans (congrArg₂ hi (W1_arg0 m ρ c) (W1_v1 m ρ c)))
/-- The weights are still there for the second kernel. -/
theorem W2_v1 (c : Dev nD) : W2 m ρ c (Proc.devRef .tc main_v1)
    = catW (m ((c : Thread nD τ).loc main_arg2)) (m ((c : Thread nD τ).loc main_arg3)) :=
  (W2_arr m ρ c 1).trans ((Proj0.final1 (V1 m ρ) c).trans (W1_v1 m ρ c))
theorem W2_arg1 (c : Dev nD) : W2 m ρ c (Proc.devRef .tc main_arg1) = m ((c : Thread nD τ).loc main_arg1) :=
  (W2_of_ne m ρ c main_arg1 (by decide)).trans (W1_arg1 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## What the second kernel leaves -/

theorem W3_v3_0 (c : Dev nD) : W3 m ρ c (Proc.devRef .tc main_v3_0)
    = lo (m ((c : Thread nD τ).loc main_arg1)) (catW (m ((c : Thread nD τ).loc main_arg2)) (m ((c : Thread nD τ).loc main_arg3))) :=
  (W3_arr m ρ c 2).trans ((Proj1.final2 (V2 m ρ) c).trans (congrArg₂ lo (W2_arg1 m ρ c) (W2_v1 m ρ c)))
theorem W3_v3_1 (c : Dev nD) : W3 m ρ c (Proc.devRef .tc main_v3_1)
    = hi (m ((c : Thread nD τ).loc main_arg1)) (catW (m ((c : Thread nD τ).loc main_arg2)) (m ((c : Thread nD τ).loc main_arg3))) :=
  (W3_arr m ρ c 3).trans ((Proj1.final3 (V2 m ρ) c).trans (congrArg₂ hi (W2_arg1 m ρ c) (W2_v1 m ρ c)))
theorem W3_v2_0 (c : Dev nD) : W3 m ρ c (Proc.devRef .tc main_v2_0)
    = lo (m ((c : Thread nD τ).loc main_arg0)) (catW (m ((c : Thread nD τ).loc main_arg2)) (m ((c : Thread nD τ).loc main_arg3))) :=
  (W3_of_ne m ρ c main_v2_0 (by decide)).trans (W2_v2_0 m ρ c)
theorem W3_v2_1 (c : Dev nD) : W3 m ρ c (Proc.devRef .tc main_v2_1)
    = hi (m ((c : Thread nD τ).loc main_arg0)) (catW (m ((c : Thread nD τ).loc main_arg2)) (m ((c : Thread nD τ).loc main_arg3))) :=
  (W3_of_ne m ρ c main_v2_1 (by decide)).trans (W2_v2_1 m ρ c)
theorem W3_arg4 (c : Dev nD) : W3 m ρ c (Proc.devRef .tc main_arg4) = m ((c : Thread nD τ).loc main_arg4) :=
  (W3_of_ne m ρ c main_arg4 (by decide)).trans (W2_arg4 m ρ c)
theorem W3_arg5 (c : Dev nD) : W3 m ρ c (Proc.devRef .tc main_arg5) = m ((c : Thread nD τ).loc main_arg5) :=
  (W3_of_ne m ρ c main_arg5 (by decide)).trans (W2_arg5 m ρ c)

/-! ## The result -/

/-- The result buffer's last contents: the stack of the two proteins' signals of the halves of the two products with
    the concatenated weights and of the index arrays as launched. -/
theorem result (c : Dev nD) : W8 m ρ c (Proc.devRef .tc main_v56)
    = Tail.stack
        (Tail.signal (lo (m ((c : Thread nD τ).loc main_arg0)) (catW (m ((c : Thread nD τ).loc main_arg2)) (m ((c : Thread nD τ).loc main_arg3))))
          (hi (m ((c : Thread nD τ).loc main_arg0)) (catW (m ((c : Thread nD τ).loc main_arg2)) (m ((c : Thread nD τ).loc main_arg3))))
          (m ((c : Thread nD τ).loc main_arg4)))
        (Tail.signal (lo (m ((c : Thread nD τ).loc main_arg1)) (catW (m ((c : Thread nD τ).loc main_arg2)) (m ((c : Thread nD τ).loc main_arg3))))
          (hi (m ((c : Thread nD τ).loc main_arg1)) (catW (m ((c : Thread nD τ).loc main_arg2)) (m ((c : Thread nD τ).loc main_arg3))))
          (m ((c : Thread nD τ).loc main_arg5))) := by
  refine (Tail.fold (W3 m ρ c)).trans ?_
  rw [W3_v2_0, W3_v2_1, W3_v3_0, W3_v3_1, W3_arg4, W3_arg5]

end Cert.KernelIdeal.Whole

end
-- ==== Proof.RefTail.lean ====
/-
  The reference's host program, as one function of its arguments' contents.

  For each protein the reference multiplies the feature matrix by the two weight matrices (the residue signal and the
  neighbour-base signal), wraps the neighbour indices (a negative index counts from the end), gathers the rows of the
  neighbour-base signal at them, zeroes the rows whose index was the padding value, sums the ten rows, divides by the
  number of real neighbours (at least one), adds the residue signal and clamps at zero; at the end it stacks the two
  proteins' arrays.  `signal` is one protein's array as a function of its two signals and its index array, `pair` and
  `stack` the final stacking.  The program's 71 operations, run in order from any buffer contents, leave the result
  buffer at `stack` of the two proteins' `signal`s: each operation's result is its function of the contents before it.
-/
import proofs.«120827_j27058293965311_2_alg».proof.Proof.RefRunP

set_option maxRecDepth 16384

noncomputable section

namespace Cert.ReferenceIdeal.Tail

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- One protein's output: the residue signal plus the masked mean of the gathered neighbour rows, clamped at zero. -/
def signal (Yr : (⟨S50000x256, .f32⟩ : BufTy).Contents (Elt F)) (Yn : (⟨S50000x256, .f32⟩ : BufTy).Contents (Elt F))
    (nb : (⟨S50000x10, .i32⟩ : BufTy).Contents (Elt F)) : (⟨S50000x256, .f32⟩ : BufTy).Contents (Elt F) :=
  (maximumf (addf Yr (Host.divf (Host.reduceAdd (mulf (Host.gather gather_S50000x256_S50000x10x1_S50000x10x256_2_0_n_n_0_2_1256 Yn (broadcastInDim S50000x10x1 ![0, 1] bcast_S50000x10_S50000x10x1_0_1 (select (cmpi .slt nb (broadcastInDim S50000x10 ![] bcast_S_S50000x10 (constantI S_ 32 0#32))) (addi nb (broadcastInDim S50000x10 ![] bcast_S_S50000x10 (constantI S_ 32 50000#32))) nb))) (broadcastInDim S50000x10x256 ![0, 1, 2] bcast_S50000x10x1_S50000x10x256_0_1_2 (uitofp .f32 (broadcastInDim S50000x10x1 ![0, 1] bcast_S50000x10_S50000x10x1_0_1 (cmpi .sgt nb (broadcastInDim S50000x10 ![] bcast_S_S50000x10 (constantI S_ 32 4294967295#32))))))) (constant S_ .f32 0x00000000#32) reducesTo_S50000x10x256_S50000x256_d1 h_S_) (broadcastInDim S50000x256 ![0, 1] bcast_S50000x1_S50000x256_0_1 (broadcastInDim S50000x1 ![0] bcast_S50000_S50000x1_0 (sitofp .f32 (maxsi (Host.reduce IntOp.addi (extui 32 (cmpi .sgt nb (broadcastInDim S50000x10 ![] bcast_S_S50000x10 (constantI S_ 32 4294967295#32))) natLt_1_32) (constantI S_ 32 0#32) reducesTo_S50000x10_S50000_d1 h_S_) (broadcastInDim S50000 ![] bcast_S_S50000 (constantI S_ 32 1#32)))))))) (broadcastInDim S50000x256 ![] bcast_S_S50000x256 (constant S_ .f32 0x00000000#32)))

/-- Two arrays of the stacked shape's pieces, one after the other along the new leading axis. -/
def pair (x y : (⟨S1x50000x256, .f32⟩ : BufTy).Contents (Elt F)) : (⟨S2x50000x256, .f32⟩ : BufTy).Contents (Elt F) :=
  concatenate S2x50000x256 0 [⟨S1x50000x256, x⟩, ⟨S1x50000x256, y⟩] concatenates_S1x50000x256_S1x50000x256_S2x50000x256_d0

/-- Two proteins' arrays stacked along a new leading axis. -/
def stack (a b : (⟨S50000x256, .f32⟩ : BufTy).Contents (Elt F)) : (⟨S2x50000x256, .f32⟩ : BufTy).Contents (Elt F) :=
  concatenate S2x50000x256 0 [⟨S1x50000x256, broadcastInDim S1x50000x256 ![1, 2] bcast_S50000x256_S1x50000x256_1_2 a⟩, ⟨S1x50000x256, broadcastInDim S1x50000x256 ![1, 2] bcast_S50000x256_S1x50000x256_1_2 b⟩] concatenates_S1x50000x256_S1x50000x256_S2x50000x256_d0

theorem pair_eq (x y : (⟨S1x50000x256, .f32⟩ : BufTy).Contents (Elt F)) :
    concatenate S2x50000x256 0 [⟨S1x50000x256, x⟩, ⟨S1x50000x256, y⟩] concatenates_S1x50000x256_S1x50000x256_S2x50000x256_d0 = pair (F := F) x y := rfl

theorem stack_eq (a b : (⟨S50000x256, .f32⟩ : BufTy).Contents (Elt F)) :
    pair (F := F) (broadcastInDim S1x50000x256 ![1, 2] bcast_S50000x256_S1x50000x256_1_2 a) (broadcastInDim S1x50000x256 ![1, 2] bcast_S50000x256_S1x50000x256_1_2 b) = stack a b := rfl

/-- A feature matrix against a weight matrix. -/
abbrev proj (Z : (⟨S50000x256, .f32⟩ : BufTy).Contents (Elt F)) (W : (⟨S256x256, .f32⟩ : BufTy).Contents (Elt F)) : (⟨S50000x256, .f32⟩ : BufTy).Contents (Elt F) :=
  Host.dotGeneral dot_S50000x256_S256x256_S50000x256_1_0_0_1_n_n none Z W

set_option maxHeartbeats 8000000 in
/-- The whole program, from any contents: the result is the stack of the two proteins' signals of the projections. -/
theorem fold (V : Valuation τ sig (Elt F)) :
    after (ops (F := F)) V (Proc.devRef .tc main_v54)
      = stack (signal (proj (V (Proc.devRef .tc main_arg0)) (V (Proc.devRef .tc main_arg2))) (proj (V (Proc.devRef .tc main_arg0)) (V (Proc.devRef .tc main_arg3))) (V (Proc.devRef .tc main_arg4)))
          (signal (proj (V (Proc.devRef .tc main_arg1)) (V (Proc.devRef .tc main_arg2))) (proj (V (Proc.devRef .tc main_arg1)) (V (Proc.devRef .tc main_arg3))) (V (Proc.devRef .tc main_arg5))) := by
  rw [← stack_eq]
  unfold signal
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne']
  rw [pair_eq]
  simp (disch := decide) only [after_cons, after_nil, nullary_result', unary_result', binary_result', ternary_result', quaternary_result',
    reshape_result', nary4_result', nary_result', unaryIndexed_result', binaryIndexed_result', nullary_result_ne', unary_result_ne',
    binary_result_ne', ternary_result_ne', quaternary_result_ne', reshape_result_ne', nary_result_ne', unaryIndexed_result_ne',
    binaryIndexed_result_ne'] <;> rfl

end Cert.ReferenceIdeal.Tail

end
-- ==== Proof.Weights.lean ====
/-
  A product with two weight matrices set side by side, cut back into its halves, is the two separate products.

  Let Wc be the 256 × 512 matrix whose columns 0 … 255 are Wr's and whose columns 256 … 511 are Wnr's (narrowing it to
  the shorter float format is the identity on the extended reals).  Then for every feature matrix Z the left half of
  Z · Wc is Z · Wr and the right half is Z · Wnr, entry by entry: the sum over k of Z(r, k) · Wc(k, q) reads
  Wc(k, q) = Wr(k, q) for q < 256, and the sum over k of Z(r, k) · Wc(k, q + 256) reads Wc(k, q + 256) = Wnr(k, q).
  Nothing here needs a finite entry: only which entry of which matrix a concatenation holds.
-/
import proofs.«120827_j27058293965311_2_alg».proof.Proof.ProjSpec
import Idealize.ShloMosaic.Lib.Pipeline.Value

noncomputable section

namespace Cert.Weights

open Idealize.ShloMosaic Idealize.ShloMosaic.ValueIdx Cert.Lib.Dense Cert.Proj
open scoped BigOperators

variable (h : Shape.Concatenates [(⟨2, ![256, 256]⟩ : Shape), (⟨2, ![256, 256]⟩ : Shape)] (⟨2, ![256, 512]⟩ : Shape) 1)
  (hb : FTy.bits .bf16 < FTy.bits .f32)
  (D : DotDims ⟨2, ![50000, 256]⟩ ⟨2, ![256, 256]⟩ ⟨2, ![50000, 256]⟩)
  (hlc : D.lhsContracting = [1]) (hrc : D.rhsContracting = [0])
  (hln : D.lhsNonContracting = [0]) (hrn : D.rhsNonContracting = [1])
  (hlb : D.lhsBatch = []) (hrb : D.rhsBatch = [])
  (Z : FVec Ideal ⟨2, ![50000, 256]⟩ .f32) (Wr Wnr : FVec Ideal ⟨2, ![256, 256]⟩ .f32)

/-- The two matrices side by side, in the shorter float format. -/
abbrev cat : FVec Ideal ⟨2, ![256, 512]⟩ .bf16 :=
  truncf .bf16 (concatenate (⟨2, ![256, 512]⟩ : Shape) 1 [⟨(⟨2, ![256, 256]⟩ : Shape), Wr⟩, ⟨(⟨2, ![256, 256]⟩ : Shape), Wnr⟩] h) hb

/-- A column below 256 of the concatenation is the first matrix's column. -/
theorem cat_left (k : Fin 256) (q : Fin 256) :
    cat h hb Wr Wnr (ix2 k (Fin.castLE (by decide : 256 ≤ 512) q)) = Wr (ix2 k q) := by
  show concatenate (⟨2, ![256, 512]⟩ : Shape) 1 [⟨(⟨2, ![256, 256]⟩ : Shape), Wr⟩, ⟨(⟨2, ![256, 256]⟩ : Shape), Wnr⟩] h
      (ix2 k (Fin.castLE (by decide : 256 ≤ 512) q)) = Wr (ix2 k q)
  exact concatenate_pair_apply_left 1 Wr Wnr h _ rfl (ix2 k q) (fun b => by
    match b with
    | ⟨0, _⟩ => rfl
    | ⟨1, _⟩ => rfl)

/-- A column from 256 on of the concatenation is the second matrix's column, 256 to the left. -/
theorem cat_right (k : Fin 256) (q : Fin 256) :
    cat h hb Wr Wnr (ix2 k (Fin.natAdd 256 q)) = Wnr (ix2 k q) := by
  show concatenate (⟨2, ![256, 512]⟩ : Shape) 1 [⟨(⟨2, ![256, 256]⟩ : Shape), Wr⟩, ⟨(⟨2, ![256, 256]⟩ : Shape), Wnr⟩] h
      (ix2 k (Fin.natAdd 256 q)) = Wnr (ix2 k q)
  refine concatenate_pair_apply_right 1 Wr Wnr h _ rfl rfl (ix2 k q) (fun b hne => ?_) (Nat.add_comm _ _)
  match b with
  | ⟨0, _⟩ => rfl
  | ⟨1, _⟩ => exact absurd rfl hne

include hlc hrc hln hrn hlb hrb in
/-- The left half of the product with the concatenation is the product with the first matrix. -/
theorem lo_cat : lo Z (cat h hb Wr Wnr) = Host.dotGeneral D none Z Wr := by
  funext i
  obtain ⟨r, q, rfl⟩ : ∃ (r : Fin 50000) (q : Fin 256), i = ix2 r q := ⟨i 0, i 1, eq_ix2 i⟩
  rw [lo_ix2, dotGeneral_at D hlc hrc hln hrn hlb hrb Z Wr r q]
  unfold rowDot
  exact Finset.sum_congr rfl fun k _ => congrArg (Z (ix2 r k) * ·) (cat_left h hb Wr Wnr k q)

include hlc hrc hln hrn hlb hrb in
/-- The right half of the product with the concatenation is the product with the second matrix. -/
theorem hi_cat : hi Z (cat h hb Wr Wnr) = Host.dotGeneral D none Z Wnr := by
  funext i
  obtain ⟨r, q, rfl⟩ : ∃ (r : Fin 50000) (q : Fin 256), i = ix2 r q := ⟨i 0, i 1, eq_ix2 i⟩
  rw [hi_ix2, dotGeneral_at D hlc hrc hln hrn hlb hrb Z Wnr r q]
  unfold rowDot
  exact Finset.sum_congr rfl fun k _ => congrArg (Z (ix2 r k) * ·) (cat_right h hb Wr Wnr k q)

end Cert.Weights

end
-- ==== Proof.Bridge.lean ====
/-
  The kernel's function of the arguments is the reference's.

  Both programs end in the same tail: the masked mean of the gathered neighbour rows added to the residue signal,
  clamped at zero, the two proteins stacked.  The kernel's spelling differs from the reference's in two places only,
  and neither is a difference on the extended reals: the kernel keeps the neighbour-base table in the shorter float
  format and widens the gathered rows (both changes of format are the identity), and it computes both tables at once as
  the halves of one product with the two weight matrices side by side — which are the two separate products
  (the module on the concatenated weights).  So the two results are equal as whole arrays.  No step uses that an
  entry is finite: sums are only re-read entry by entry, never re-bracketed against a product.
-/
import proofs.«120827_j27058293965311_2_alg».proof.Proof.KernelValue
import proofs.«120827_j27058293965311_2_alg».proof.Proof.RefTail
import proofs.«120827_j27058293965311_2_alg».proof.Proof.Weights

set_option maxRecDepth 16384

noncomputable section

namespace Cert.Bridge

open Idealize.ShloMosaic Cert.Proj

/-- One protein's signal: the kernel's function is the reference's (the widening after the gather is the identity). -/
theorem signal_eq (Yr : (⟨Cert.KernelIdeal.S50000x256, .f32⟩ : BufTy).Contents (Elt Ideal)) (Yn : (⟨Cert.KernelIdeal.S50000x256, .bf16⟩ : BufTy).Contents (Elt Ideal))
    (nb : (⟨Cert.KernelIdeal.S50000x10, .i32⟩ : BufTy).Contents (Elt Ideal)) :
    Cert.KernelIdeal.Tail.signal (F := Ideal) Yr Yn nb = Cert.ReferenceIdeal.Tail.signal (F := Ideal) Yr Yn nb := rfl

/-- The stacking: the kernel's function is the reference's. -/
theorem stack_eq (a b : (⟨Cert.KernelIdeal.S50000x256, .f32⟩ : BufTy).Contents (Elt Ideal)) :
    Cert.KernelIdeal.Tail.stack (F := Ideal) a b = Cert.ReferenceIdeal.Tail.stack (F := Ideal) a b := rfl

variable (Z : (⟨Cert.KernelIdeal.S50000x256, .f32⟩ : BufTy).Contents (Elt Ideal)) (Wr Wnr : (⟨Cert.KernelIdeal.S256x256, .f32⟩ : BufTy).Contents (Elt Ideal))

/-- The left half of the product with the weights side by side is the product with the first weight matrix. -/
theorem lo_eq : lo Z (Cert.KernelIdeal.Whole.catW Wr Wnr) = Cert.ReferenceIdeal.Tail.proj (F := Ideal) Z Wr :=
  Cert.Weights.lo_cat Cert.KernelIdeal.Facts₀.concatenates_S256x256_S256x256_S256x512_d1 Cert.KernelIdeal.Facts₀.bitsLt_bf16_f32
    Cert.ReferenceIdeal.dot_S50000x256_S256x256_S50000x256_1_0_0_1_n_n rfl rfl rfl rfl rfl rfl Z Wr Wnr

/-- The right half is the product with the second weight matrix. -/
theorem hi_eq : hi Z (Cert.KernelIdeal.Whole.catW Wr Wnr) = Cert.ReferenceIdeal.Tail.proj (F := Ideal) Z Wnr :=
  Cert.Weights.hi_cat Cert.KernelIdeal.Facts₀.concatenates_S256x256_S256x256_S256x512_d1 Cert.KernelIdeal.Facts₀.bitsLt_bf16_f32
    Cert.ReferenceIdeal.dot_S50000x256_S256x256_S50000x256_1_0_0_1_n_n rfl rfl rfl rfl rfl rfl Z Wr Wnr

/-- The two programs' results, as functions of the same six arrays, are equal. -/
theorem result_eq (Z1 Z2 : (⟨Cert.KernelIdeal.S50000x256, .f32⟩ : BufTy).Contents (Elt Ideal)) (Wr Wnr : (⟨Cert.KernelIdeal.S256x256, .f32⟩ : BufTy).Contents (Elt Ideal))
    (n1 n2 : (⟨Cert.KernelIdeal.S50000x10, .i32⟩ : BufTy).Contents (Elt Ideal)) :
    Cert.KernelIdeal.Tail.stack (F := Ideal)
        (Cert.KernelIdeal.Tail.signal (lo Z1 (Cert.KernelIdeal.Whole.catW Wr Wnr)) (hi Z1 (Cert.KernelIdeal.Whole.catW Wr Wnr)) n1)
        (Cert.KernelIdeal.Tail.signal (lo Z2 (Cert.KernelIdeal.Whole.catW Wr Wnr)) (hi Z2 (Cert.KernelIdeal.Whole.catW Wr Wnr)) n2)
      = Cert.ReferenceIdeal.Tail.stack (F := Ideal)
        (Cert.ReferenceIdeal.Tail.signal (Cert.ReferenceIdeal.Tail.proj Z1 Wr) (Cert.ReferenceIdeal.Tail.proj Z1 Wnr) n1)
        (Cert.ReferenceIdeal.Tail.signal (Cert.ReferenceIdeal.Tail.proj Z2 Wr) (Cert.ReferenceIdeal.Tail.proj Z2 Wnr) n2) := by
  rw [stack_eq, signal_eq, signal_eq, lo_eq, hi_eq, lo_eq, hi_eq]

end Cert.Bridge

end
-- ==== Proof.lean ====
/-
  A graph-network layer over two proteins: for each protein, a feature matrix Z (50000 × 256) is projected by two
  weight matrices into a residue signal Z·Wr and a neighbour-base signal Z·Wnr; every row gathers the neighbour-base
  rows of its ten neighbours (index −1 is padding: it wraps to the last row and is then masked out), averages the
  real ones (dividing by their number, at least one), adds its residue signal and is clamped at zero; the two proteins'
  arrays are stacked.

  The kernel computes both signals of a protein at once, as the two halves of the product of Z with the two weight
  matrices set side by side, in a pipelined projection kernel over 25 row blocks (one launch per protein), keeps the
  neighbour-base table in the shorter float format, and does the gather, the masked mean, the sum and the clamp as
  host operations.  The reference does everything as host operations in the wider format.

  On the extended reals the two programs compute the same arrays, entry by entry: a change of float format is the
  identity; a product into a zero accumulator is the sum over the contracted axis, like the host's product; column q
  of the side-by-side matrix is column q of Wr for q < 256 and column q − 256 of Wnr otherwise; and the tails are the
  same operations on the same tables.  Finiteness of the inputs is never used.  The ideal pass rewrote nothing in the
  kernel, so that the idealized kernel is the kernel's sanctioned idealization holds trivially; the three frames are the
  programs' runs with the results dropped.
-/
import proofs.«120827_j27058293965311_2_alg».proof.Defs
import proofs.«120827_j27058293965311_2_alg».proof.Proof.Gen.Kernel
import proofs.«120827_j27058293965311_2_alg».proof.Proof.Gen.Kernel.Skeleton
import proofs.«120827_j27058293965311_2_alg».proof.Proof.Gen.Kernel.Launch
import proofs.«120827_j27058293965311_2_alg».proof.Proof.Gen.Kernel.Points
import proofs.«120827_j27058293965311_2_alg».proof.Proof.Gen.Kernel.Frame
import proofs.«120827_j27058293965311_2_alg».proof.Proof.Gen.KernelIdeal
import proofs.«120827_j27058293965311_2_alg».proof.Proof.Gen.KernelIdeal.Skeleton
import proofs.«120827_j27058293965311_2_alg».proof.Proof.Gen.KernelIdeal.Launch
import proofs.«120827_j27058293965311_2_alg».proof.Proof.Gen.KernelIdeal.Points
import proofs.«120827_j27058293965311_2_alg».proof.Proof.Gen.KernelIdeal.Frame
import proofs.«120827_j27058293965311_2_alg».proof.Proof.Gen.ReferenceIdeal
import proofs.«120827_j27058293965311_2_alg».proof.Proof.Gen.Pre_finite_inputs
import proofs.«120827_j27058293965311_2_alg».proof.Proof.KernelRun
import proofs.«120827_j27058293965311_2_alg».proof.Proof.KernelValue
import proofs.«120827_j27058293965311_2_alg».proof.Proof.RefRunP
import proofs.«120827_j27058293965311_2_alg».proof.Proof.RefTail
import proofs.«120827_j27058293965311_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation of the kernel. -/
theorem preserves : Cert.preserves_Kernel_KernelIdeal := trivial

/-- From memories agreeing on the six arguments both idealized programs end at the stack of the two proteins' signals
    of the same projections and index arrays. -/
theorem algebraic : Cert.algebraic_KernelIdeal_ReferenceIdeal := by
  intro m ρ m' ρ' _ hagree
  refine ⟨fun c => Cert.ReferenceIdeal.Tail.stack (F := Ideal)
      (Cert.ReferenceIdeal.Tail.signal (Cert.ReferenceIdeal.Tail.proj (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
        (Cert.ReferenceIdeal.Tail.proj (m ((c.tc : Thread Cert.KernelIdeal.nD Cert.KernelIdeal.τ).loc Cert.KernelIdeal.main_arg0)) (m ((c.tc : Thread Cert.KernelIdeal.nD Cert.KernelIdeal.τ).loc Cert.KernelIdeal.main_arg3))) (m ((c.tc : Thread Cert.KernelIdeal.nD Cert.KernelIdeal.τ).loc Cert.KernelIdeal.main_arg4)))
      (Cert.ReferenceIdeal.Tail.signal (Cert.ReferenceIdeal.Tail.proj (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        (Cert.ReferenceIdeal.Tail.proj (m ((c.tc : Thread Cert.KernelIdeal.nD Cert.KernelIdeal.τ).loc Cert.KernelIdeal.main_arg1)) (m ((c.tc : Thread Cert.KernelIdeal.nD Cert.KernelIdeal.τ).loc Cert.KernelIdeal.main_arg3))) (m ((c.tc : Thread Cert.KernelIdeal.nD Cert.KernelIdeal.τ).loc Cert.KernelIdeal.main_arg5))), ?_, ?_⟩
  · exact (θ_run Cert.KernelIdeal.defs _ _).mono
      (fun r h c => ⟨(h c).1.trans ((Cert.KernelIdeal.Whole.result m ρ c).trans
          (Cert.Bridge.result_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
            (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)))), (h c).2⟩)
      (Cert.KernelIdeal.RunValue.run_result m ρ)
  · refine (θ_run Cert.ReferenceIdeal.defs _ _).mono (fun r h c => ⟨(h c).1.trans ?_, (h c).2⟩)
      (Cert.ReferenceIdeal.ValueP.run (F := Ideal) m' ρ')
    refine (Cert.ReferenceIdeal.Tail.fold _).trans ?_
    show Cert.ReferenceIdeal.Tail.stack (F := Ideal)
      (Cert.ReferenceIdeal.Tail.signal (Cert.ReferenceIdeal.Tail.proj (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)))
        (Cert.ReferenceIdeal.Tail.proj (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg3))) (m' ((c.tc : Thread Cert.ReferenceIdeal.nD Cert.ReferenceIdeal.τ).loc Cert.ReferenceIdeal.main_arg4)))
      (Cert.ReferenceIdeal.Tail.signal (Cert.ReferenceIdeal.Tail.proj (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)))
        (Cert.ReferenceIdeal.Tail.proj (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3))) (m' ((c.tc : Thread Cert.ReferenceIdeal.nD Cert.ReferenceIdeal.τ).loc Cert.ReferenceIdeal.main_arg5))) = _
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
